-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S128x4096 : Shape := ⟨2, ![128, 4096]⟩
abbrev S128 : Shape := ⟨1, ![128]⟩
abbrev S16384x128 : Shape := ⟨2, ![16384, 128]⟩
abbrev S1024x4096 : Shape := ⟨2, ![1024, 4096]⟩
abbrev S512x128 : Shape := ⟨2, ![512, 128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S512x2x128 : Shape := ⟨3, ![512, 2, 128]⟩
abbrev S512x1x128 : Shape := ⟨3, ![512, 1, 128]⟩
abbrev S32768x64 : Shape := ⟨2, ![32768, 64]⟩

abbrev nBuf : Space → Nat
  | .hbm => 7
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S128x4096, .f32⟩
  | .hbm, ⟨4, _⟩ => ⟨S128, .f32⟩
  | .hbm, ⟨5, _⟩ => ⟨S16384x128, .f32⟩
  | .hbm, ⟨6, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S128, .f32⟩
  | .local _ .vmem, ⟨4, _⟩ => ⟨S512x128, .f32⟩
  | .local _ .vmem, ⟨5, _⟩ => ⟨S512x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S64x4096_S64x4096_S128x4096_d0 : Shape.Concatenates [S64x4096, S64x4096] S128x4096 0
  concatenates_S64_S64_S128_d0 : Shape.Concatenates [S64, S64] S128 0
  inb_S1024x4096_S1024x4096_0_0 : ∀ a, (![0, 0] : Fin 2 → Nat) a + S1024x4096.size a ≤ S1024x4096.size a
  h_S1024x4096 : 0 < S1024x4096.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  shapeCasts_S1024x128_S512x2x128 : S1024x128.ShapeCasts S512x2x128
  slices_S512x2x128_o0_0_0_S512x1x128 : S512x2x128.Slices ![0, 0, 0] S512x1x128
  shapeCasts_S512x1x128_S512x128 : S512x1x128.ShapeCasts S512x128
  slices_S512x2x128_o0_1_0_S512x1x128 : S512x2x128.Slices ![0, 1, 0] S512x1x128
  iota_S512x128_d1_w32 : S512x128.Iotas .tc 32 [1]
  inb_S512x128_S512x128_0_0 : ∀ a, (![0, 0] : Fin 2 → Nat) a + S512x128.size a ≤ S512x128.size a
  h_S512x128 : 0 < S512x128.numel
  shapeCasts_S16384x128_S32768x64 : S16384x128.ShapeCasts S32768x64
  dot_S1024x4096_S128x4096_S1024x128_1_1_0_0_n_n_wf : DotDims.WF S1024x4096 S128x4096 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S16384x128.size a
  hwx0_3 : ∀ i : grid0.Coords, EltTy.bits .f32 = 32 ∨ (Rect.block (s := S16384x128) S512x128.size (cc0_transform_3 i) (hinb0_3 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Gate.lean ====
/-
  The router's gate as mathematics, with no program in sight: for a token's row of activations, its 64 logits are the
  row's inner products with the rows of the weight plus the bias; the gate is the softmax of the logits, taken the stable
  way (the row's maximum subtracted before the exponential), all on the extended reals.

  Beside it, the same quantity as a row of a 1024-token tile sees it when the weight and the bias have been laid twice side
  by side (128 lanes, lane j a copy of expert j mod 64): every lane's logit is its expert's, the maximum over the 128
  lanes is the maximum over the 64 experts (a maximum does not count repetitions), the sum of the 128 exponentials is the
  64-expert sum taken twice, and half of that double sum is the sum itself because a sum of exponentials is never
  negative (so the only infinite case is +∞, which halving keeps).  These are the only laws the comparison needs; none of
  them asks the inputs to be finite.
-/
import Idealize.ShloMosaic.PureOps.Ideal
import Idealize.ShloMosaic.PureOps.Ideal.Laws
import Idealize.ShloMosaic.Lib.ValueIdx

noncomputable section

open scoped BigOperators

namespace Cert.RouterGate

open Idealize.ShloMosaic Idealize.ShloMosaic.ValueIdx

/-! ## Two words -/

/-- The value a maximum starts from: the word of f32's −∞, never evaluated (both sides start from the same word). -/
abbrev negInf : EReal := Ideal.ofBits .f32 0xFF800000#32

/-- The word of f32's one half. -/
abbrev half : EReal := Ideal.ofBits .f32 0x3F000000#32

/-- It denotes the real number 1/2. -/
theorem half_eq : half = ((1 / 2 : ℝ) : EReal) := by
  simp [half, Ideal.ofBits, Ideal.ieee, -EReal.coe_mul]
  norm_num

/-! ## Laws on the extended reals -/

/-- An exponential is never negative (0 at −∞, +∞ at +∞). -/
theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- Half of a non-negative quantity taken twice is the quantity: for a real by arithmetic, and +∞ stays +∞. -/
theorem half_mul_double {S : EReal} (hS : 0 ≤ S) : half * (S + S) = S := by
  rw [half_eq]
  induction S using EReal.rec with
  | bot => exact absurd hS (by simp)
  | top => rw [EReal.top_add_top]; exact EReal.coe_mul_top_of_pos (by norm_num)
  | coe r => rw [← EReal.coe_add, ← EReal.coe_mul]; congr 1; ring

/-- A running maximum from a common start over two families with the same set of values is the same: a maximum does not
    count how often a value occurs. -/
theorem fold_max_eq_of_same_values {ι κ : Type} [Fintype ι] [Fintype κ] (b₀ : EReal) (f : ι → EReal) (g : κ → EReal)
    (hgf : ∀ j, ∃ e, g j = f e) (hfg : ∀ e, ∃ j, g j = f e) :
    (Finset.univ : Finset κ).fold max b₀ g = (Finset.univ : Finset ι).fold max b₀ f := by
  apply le_antisymm
  · rw [Finset.fold_max_le]
    refine ⟨(Finset.le_fold_max _).mpr (Or.inl le_rfl), fun j _ => ?_⟩
    obtain ⟨e, he⟩ := hgf j
    rw [he]
    exact (Finset.le_fold_max _).mpr (Or.inr ⟨e, Finset.mem_univ _, le_rfl⟩)
  · rw [Finset.fold_max_le]
    refine ⟨(Finset.le_fold_max _).mpr (Or.inl le_rfl), fun e _ => ?_⟩
    obtain ⟨j, hj⟩ := hfg e
    rw [← hj]
    exact (Finset.le_fold_max _).mpr (Or.inr ⟨j, Finset.mem_univ _, le_rfl⟩)

/-- The start of a running maximum is below it, so taking the maximum with the start once more changes nothing. -/
theorem max_start_fold {ι : Type} [Fintype ι] (b₀ : EReal) (f : ι → EReal) :
    max b₀ ((Finset.univ : Finset ι).fold max b₀ f) = (Finset.univ : Finset ι).fold max b₀ f :=
  max_eq_right ((Finset.le_fold_max _).mpr (Or.inl le_rfl))

/-- A sum over 128 lanes whose lane j holds the value of expert j mod 64 is the 64-expert sum taken twice. -/
theorem sum_two_copies (f : Fin 64 → EReal) (g : Fin 128 → EReal)
    (hg : ∀ j : Fin 128, g j = f ⟨j.val % 64, Nat.mod_lt _ (by norm_num)⟩) :
    ∑ j : Fin 128, g j = (∑ e : Fin 64, f e) + ∑ e : Fin 64, f e := by
  rw [show (∑ j : Fin 128, g j) = ∑ j : Fin (64 + 64), g j from rfl, Fin.sum_univ_add]
  congr 1 <;> refine Finset.sum_congr rfl fun i _ => ?_
  · rw [hg]; exact congrArg f (Fin.ext (by have := i.isLt; simp only [Fin.coe_castAdd]; omega))
  · rw [hg]; exact congrArg f (Fin.ext (by have := i.isLt; simp only [Fin.coe_natAdd]; omega))

/-! ## The gate over the whole arrays -/

section Whole

variable (X : (⟨2, ![32768, 4096]⟩ : Shape).Idx → EReal) (W : (⟨2, ![64, 4096]⟩ : Shape).Idx → EReal)
  (b : (⟨1, ![64]⟩ : Shape).Idx → EReal)

/-- Token n's logit for expert e: the inner product of the token's row with the expert's row of the weight, plus the bias. -/
def logit (n : Fin 32768) (e : Fin 64) : EReal := (∑ k : Fin 4096, X (ix2 n k) * W (ix2 e k)) + b (ix1 e)

/-- Token n's largest logit, as a running maximum from −∞. -/
def rowMax (n : Fin 32768) : EReal := (Finset.univ : Finset (Fin 64)).fold max negInf (fun e => logit X W b n e)

/-- The exponential of a logit's distance below the row's maximum. -/
def expo (n : Fin 32768) (e : Fin 64) : EReal := Ideal.exp (logit X W b n e - rowMax X W b n)

/-- The row's normalizer. -/
def denom (n : Fin 32768) : EReal := ∑ e : Fin 64, expo X W b n e

/-- The gate: token by token the softmax of the logits. -/
def gate : (⟨2, ![32768, 64]⟩ : Shape).Idx → EReal := fun i => Ideal.div (expo X W b (i 0) (i 1)) (denom X W b (i 0))

theorem denom_nonneg (n : Fin 32768) : 0 ≤ denom X W b n := Finset.sum_nonneg fun _ _ => exp_nonneg _

/-- The same values laid out as the kernel writes them: two tokens' 64 gates side by side in a row of 128, row R holding
    tokens 2R and 2R + 1. -/
def packed : (⟨2, ![16384, 128]⟩ : Shape).Idx → EReal := fun i =>
  gate X W b (ix2 ⟨2 * (i 0).val + (i 1).val / 64, by have := (i 0).isLt; have := (i 1).isLt; simp at *; omega⟩
    ⟨(i 1).val % 64, Nat.mod_lt _ (by norm_num)⟩)

end Whole

/-! ## The gate as one tile computes it from doubled weights -/

section Tile

variable (x0 : (⟨2, ![1024, 4096]⟩ : Shape).Idx → EReal) (x1 : (⟨2, ![128, 4096]⟩ : Shape).Idx → EReal)
  (x2 : (⟨1, ![128]⟩ : Shape).Idx → EReal)

/-- Row r's logit in lane j. -/
def tlogit (r : Fin 1024) (j : Fin 128) : EReal := (∑ k : Fin 4096, x0 (ix2 r k) * x1 (ix2 j k)) + x2 (ix1 j)

/-- Row r's maximum over the 128 lanes. -/
def tmax (r : Fin 1024) : EReal := (Finset.univ : Finset (Fin 128)).fold max negInf (fun j => tlogit x0 x1 x2 r j)

def texp (r : Fin 1024) (j : Fin 128) : EReal := Ideal.exp (tlogit x0 x1 x2 r j - tmax x0 x1 x2 r)

/-- Half the sum of the row's 128 exponentials. -/
def tden (r : Fin 1024) : EReal := half * ∑ j : Fin 128, texp x0 x1 x2 r j

/-- The tile's quotient at row r, lane j. -/
def tquot (r : Fin 1024) (j : Fin 128) : EReal := Ideal.div (texp x0 x1 x2 r j) (tden x0 x1 x2 r)

end Tile

/-- On a tile holding rows 1024 t … 1024 t + 1023 of the activations, with the weight and bias doubled, row r's quotient in
    lane j is the gate of token 1024 t + r for expert j mod 64. -/
theorem tquot_eq_gate (X : (⟨2, ![32768, 4096]⟩ : Shape).Idx → EReal) (W : (⟨2, ![64, 4096]⟩ : Shape).Idx → EReal)
    (b : (⟨1, ![64]⟩ : Shape).Idx → EReal)
    (x0 : (⟨2, ![1024, 4096]⟩ : Shape).Idx → EReal) (x1 : (⟨2, ![128, 4096]⟩ : Shape).Idx → EReal)
    (x2 : (⟨1, ![128]⟩ : Shape).Idx → EReal) (t : Fin 32)
    (h0 : ∀ (r : Fin 1024) (k : Fin 4096), x0 (ix2 r k) = X (ix2 ⟨1024 * t.val + r.val, by have := t.isLt; have := r.isLt; omega⟩ k))
    (h1 : ∀ (j : Fin 128) (k : Fin 4096), x1 (ix2 j k) = W (ix2 ⟨j.val % 64, Nat.mod_lt _ (by norm_num)⟩ k))
    (h2 : ∀ j : Fin 128, x2 (ix1 j) = b (ix1 ⟨j.val % 64, Nat.mod_lt _ (by norm_num)⟩))
    (r : Fin 1024) (j : Fin 128) :
    tquot x0 x1 x2 r j = gate X W b (ix2 ⟨1024 * t.val + r.val, by have := t.isLt; have := r.isLt; omega⟩
      ⟨j.val % 64, Nat.mod_lt _ (by norm_num)⟩) := by
  have hlog : ∀ j : Fin 128, tlogit x0 x1 x2 r j
      = logit X W b ⟨1024 * t.val + r.val, by have := t.isLt; have := r.isLt; omega⟩ ⟨j.val % 64, Nat.mod_lt _ (by norm_num)⟩ := by
    intro j
    unfold tlogit logit
    rw [h2 j]
    exact congrArg (· + _) (Finset.sum_congr rfl fun k _ => by rw [h0 r k, h1 j k])
  have hmax : tmax x0 x1 x2 r = rowMax X W b ⟨1024 * t.val + r.val, by have := t.isLt; have := r.isLt; omega⟩ := by
    unfold tmax rowMax
    refine fold_max_eq_of_same_values _ _ _ (fun j => ⟨_, hlog j⟩) (fun e => ⟨⟨e.val, by have := e.isLt; omega⟩, ?_⟩)
    rw [hlog]
    exact congrArg _ (Fin.ext (by have := e.isLt; show e.val % 64 = e.val; omega))
  have hexp : ∀ j : Fin 128, texp x0 x1 x2 r j
      = expo X W b ⟨1024 * t.val + r.val, by have := t.isLt; have := r.isLt; omega⟩ ⟨j.val % 64, Nat.mod_lt _ (by norm_num)⟩ := by
    intro j
    unfold texp expo
    rw [hlog j, hmax]
  have hden : tden x0 x1 x2 r = denom X W b ⟨1024 * t.val + r.val, by have := t.isLt; have := r.isLt; omega⟩ := by
    unfold tden
    rw [sum_two_copies (fun e => expo X W b ⟨1024 * t.val + r.val, by have := t.isLt; have := r.isLt; omega⟩ e) _ hexp]
    exact half_mul_double (denom_nonneg X W b _)
  unfold tquot gate
  rw [hexp j, hden]

end Cert.RouterGate

end
-- ==== Proof.RefIsSpec.lean ====
/-
  The reference computes the gate.  Read one operation at a time, its last stage at token n and expert e is the quotient of
  the exponential of that logit's distance below the row's maximum by the sum of the row's 64 such exponentials: the
  matrix product against the transposed weight is the inner product of the token's row with the expert's row; the row
  maximum is a running maximum from −∞ over the 64 experts, and taking its maximum with −∞ once more changes nothing;
  the sum starts from zero.
-/
import proofs.«144709_g60146722013333_cont_9to1_m_816_25_alg».proof.Proof.Gen.ReferenceIdeal.Read
import proofs.«144709_g60146722013333_cont_9to1_m_816_25_alg».proof.Proof.Gate

noncomputable section

namespace Cert.RouterGate.Ref

open Cert.ReferenceIdeal Cert.ReferenceIdeal.Gen Cert.ReferenceIdeal.Read Cert.RouterGate
open Idealize.ShloMosaic Idealize.ShloMosaic.ValueIdx

variable (x0 : (⟨S32768x4096, .f32⟩ : BufTy).Contents (Elt Ideal)) (x1 : (⟨S64x4096, .f32⟩ : BufTy).Contents (Elt Ideal))
  (x2 : (⟨S64, .f32⟩ : BufTy).Contents (Elt Ideal))

/-- The biased product at (n, e) is token n's logit for expert e. -/
theorem logits_at (n : Fin 32768) (e : Fin 64) :
    val_main_v4 (F := Ideal) x0 x1 x2 (ix2 n e) = logit x0 x1 x2 n e := by
  rw [val_main_v4_apply, val_main_v1_apply, val_main_v3_apply, val_main_v2_apply]
  unfold logit
  have e3 : idx_main_v2 (idx_main_v3 (ix2 n e)) = ix1 e :=
    funext fun a => Fin.ext (by match a with | ⟨0, _⟩ => rfl)
  rw [e3]
  refine congrArg (· + x2 (ix1 e)) (Finset.sum_congr rfl fun k _ => ?_)
  rw [val_main_v0_apply]
  have el : lidx_main_v1 (ix2 n e) k = ix2 n k :=
    funext fun a => Fin.ext (by match a with | ⟨0, _⟩ => rfl | ⟨1, _⟩ => rfl)
  have er : idx_main_v0 (ridx_main_v1 (ix2 n e) k) = ix2 e k :=
    funext fun a => Fin.ext (by match a with | ⟨0, _⟩ => rfl | ⟨1, _⟩ => rfl)
  rw [el, er]

/-- The row maximum at n is the running maximum of token n's logits from −∞. -/
theorem rowMax_at (n : Fin 32768) : val_main_v7 (F := Ideal) x0 x1 x2 (ix1 n) = rowMax x0 x1 x2 n := by
  have H : S32768x64.Reduces [1] S32768 := by decide
  have hf : (val_main_v4 (F := Ideal) x0 x1 x2 ∘ H.lift (ix1 n)) = fun e : Fin 64 => logit x0 x1 x2 n e := by
    funext k
    show val_main_v4 (F := Ideal) x0 x1 x2 (H.lift (ix1 n) k) = logit x0 x1 x2 n k
    have hk : H.lift (ix1 n) k = ix2 n k :=
      funext fun a => Fin.ext (by match a with | ⟨0, _⟩ => rfl | ⟨1, _⟩ => rfl)
    rw [hk]
    exact logits_at x0 x1 x2 n k
  rw [val_main_v7_apply, val_main_v6_apply, val_main_cst_0_apply]
  unfold val_main_v5
  rw [Host.reduce_eq_fold_single FloatOps.maximumf _ _ reducesTo_S32768x64_S32768_d1 H h_S_]
  unfold rowMax
  refine Eq.trans ?_ (congrArg (fun f => Finset.fold max negInf f (Finset.univ : Finset (Fin 64))) hf)
  exact max_start_fold negInf _

/-- The exponential stage at (n, e). -/
theorem expo_at (n : Fin 32768) (e : Fin 64) : val_main_v11 (F := Ideal) x0 x1 x2 (ix2 n e) = expo x0 x1 x2 n e := by
  rw [val_main_v11_apply, val_main_v10_apply, val_main_v9_apply, val_main_v8_apply]
  have e9 : idx_main_v8 (idx_main_v9 (ix2 n e)) = ix1 n :=
    funext fun a => Fin.ext (by match a with | ⟨0, _⟩ => rfl)
  rw [e9, rowMax_at, logits_at]
  rfl

/-- The reference's result is the gate. -/
theorem result_eq : val_main_v15 (F := Ideal) x0 x1 x2 = gate x0 x1 x2 := by
  funext i
  obtain ⟨n, e, rfl⟩ : ∃ (n : Fin 32768) (e : Fin 64), i = ix2 n e := ⟨i 0, i 1, eq_ix2 i⟩
  rw [val_main_v15_apply, val_main_v14_apply, val_main_v13_apply, val_main_v12_apply]
  show Ideal.div _ _ = Ideal.div (expo x0 x1 x2 n e) (∑ e' : Fin 64, expo x0 x1 x2 n e')
  refine congrArg₂ Ideal.div (expo_at x0 x1 x2 n e) ?_
  show Ideal.ofBits .f32 0x00000000#32 + _ = _
  rw [Ideal.ofBits_zero_f32, zero_add]
  refine Finset.sum_congr rfl fun k _ => ?_
  have hk : idx_main_v12 (idx_main_v13 (idx_main_v14 (ix2 n e))) k = ix2 n k :=
    funext fun a => Fin.ext (by match a with | ⟨0, _⟩ => rfl | ⟨1, _⟩ => rfl)
  rw [hk]
  exact expo_at x0 x1 x2 n k

end Cert.RouterGate.Ref

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What one grid point's body stores, read at an index.  The body's arithmetic is cut into its stages — the biased product
  of the token tile with the doubled weight, each row's maximum spread back over the row, the exponentials of the
  distances below it, half the row's sum of exponentials spread back, the quotient — and then the packing: the 1024 × 128
  quotient is viewed as 512 pairs of rows, and the stored 512 × 128 block takes, in row r', its lanes below 64 from the
  pair's first row and the others from its second.  So row r', lane l of the stored block is the quotient at row
  2 r' + l / 64, lane l.
-/
import proofs.«144709_g60146722013333_cont_9to1_m_816_25_alg».proof.Proof.Gen.KernelIdeal.Skeleton
import proofs.«144709_g60146722013333_cont_9to1_m_816_25_alg».proof.Proof.Gate
import proofs.«144709_g60146722013333_cont_9to1_m_816_25_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RouterGate.Body

open Cert.KernelIdeal Cert.KernelIdeal.Gen Cert.RouterGate Cert.LibKeepdims
open Idealize.ShloMosaic Idealize.ShloMosaic.ValueIdx

/-- The tile's product: rows of the token tile against rows of the doubled weight, contracted over the model axis. -/
abbrev dotD : DotDims S1024x4096 S128x4096 S1024x128 := dot_S1024x4096_S128x4096_S1024x128_1_1_0_0_n_n

/-! ## The stages -/

/-- The logits of the tile: the product into a zero accumulator, plus the bias row spread over the 1024 rows. -/
def logitsV (v0 : FVec Ideal S1024x4096 .f32) (v1 : FVec Ideal S128x4096 .f32) (v4 : FVec Ideal S128 .f32) : FVec Ideal S1024x128 .f32 :=
  addf (matmul dotD none v0 (shapeCast S128x4096 v1 shapeCasts_S128x4096_S128x4096) (constant S1024x128 .f32 0x00000000#32))
    (broadcastTo S1024x128 (shapeCast S1x128 (shapeCast S128 v4 shapeCasts_S128_S128) shapeCasts_S128_S1x128) broadcasts_S1x128_S1024x128)

/-- Each row's maximum over its 128 lanes, as a column spread back over the lanes. -/
def rowMaxV (v8 : FVec Ideal S1024x128 .f32) : FVec Ideal S1024x128 .f32 :=
  broadcastTo S1024x128 (shapeCast S1024x1 (multiReduction .maximumf [1] S1024 v8 0xFF800000#32 reduces_S1024x128_S1024 (.inl rfl) rfl)
    shapeCasts_S1024_S1024x1) broadcasts_S1024x1_S1024x128

/-- The exponentials of the distances below the row's maximum. -/
def expV (v8 : FVec Ideal S1024x128 .f32) : FVec Ideal S1024x128 .f32 := exp (subf v8 (rowMaxV v8))

/-- Half of each row's sum over its 128 lanes, as a column spread back over the lanes. -/
def halfSumV (v13 : FVec Ideal S1024x128 .f32) : FVec Ideal S1024x128 .f32 :=
  broadcastTo S1024x128 (mulf (broadcast S1024x1 (Scalar.ofBits .f32 0x3F000000#32 : Ideal .f32))
    (shapeCast S1024x1 (multiReduction .add [1] S1024 v13 0x00000000#32 reduces_S1024x128_S1024 (.inl rfl) rfl) shapeCasts_S1024_S1024x1))
    broadcasts_S1024x1_S1024x128

/-- The quotient of the exponentials by half their row sums. -/
def quotV (v13 : FVec Ideal S1024x128 .f32) : FVec Ideal S1024x128 .f32 := divf v13 (halfSumV v13)

/-- The first row of each pair of rows. -/
def evenRows (v19 : FVec Ideal S1024x128 .f32) : FVec Ideal S512x128 .f32 :=
  shapeCast S512x128 (extractStridedSlice S512x1x128 ![0, 0, 0] (shapeCast S512x2x128 v19 shapeCasts_S1024x128_S512x2x128)
    slices_S512x2x128_o0_0_0_S512x1x128) shapeCasts_S512x1x128_S512x128

/-- The second row of each pair of rows. -/
def oddRows (v19 : FVec Ideal S1024x128 .f32) : FVec Ideal S512x128 .f32 :=
  shapeCast S512x128 (extractStridedSlice S512x1x128 ![0, 1, 0] (shapeCast S512x2x128 v19 shapeCasts_S1024x128_S512x2x128)
    slices_S512x2x128_o0_1_0_S512x1x128) shapeCasts_S512x1x128_S512x128

/-- The lanes below 64, as a mask. -/
def lowLanes : IVec S512x128 1 := cmpi .slt (iota .tc S512x128 32 [1] iota_S512x128_d1_w32) (broadcast S512x128 64#32)

set_option maxRecDepth 65536 in
/-- The stored value is the stages composed. -/
theorem pay_eq (v0 : Vec Ideal S1024x4096 .f32) (v1 : Vec Ideal S128x4096 .f32) (v4 : Vec Ideal S128 .f32) :
    k0_pay1 (F := Ideal) v0 v1 v4
      = select lowLanes (evenRows (quotV (expV (logitsV v0 v1 v4)))) (oddRows (quotV (expV (logitsV v0 v1 v4)))) := rfl

/-! ## Each stage at an index -/

theorem lhs0 (i : S1024x128.Idx) (q : dotD.contr.Idx) : (dotD.lhsIdx i q 0).val = (i 0).val := by
  unfold DotDims.lhsIdx
  rw [dif_neg (show ¬(0 : Fin S1024x4096.rank) ∈ dotD.lhsBatch by decide), dif_pos (show (0 : Fin S1024x4096.rank) ∈ dotD.lhsNonContracting by decide)]
  rfl

theorem rhs0 (i : S1024x128.Idx) (q : dotD.contr.Idx) : (dotD.rhsIdx i q 0).val = (i 1).val := by
  unfold DotDims.rhsIdx
  rw [dif_neg (show ¬(0 : Fin S128x4096.rank) ∈ dotD.rhsBatch by decide), dif_pos (show (0 : Fin S128x4096.rank) ∈ dotD.rhsNonContracting by decide)]
  rfl

/-- The logit at row r, lane j: the inner product of the tile's row r with the doubled weight's row j, plus lane j's bias. -/
theorem logitsV_apply (v0 : FVec Ideal S1024x4096 .f32) (v1 : FVec Ideal S128x4096 .f32) (v4 : FVec Ideal S128 .f32)
    (r : Fin 1024) (j : Fin 128) : logitsV v0 v1 v4 (ix2 r j) = tlogit v0 v1 v4 r j := by
  unfold logitsV tlogit
  rw [addf_apply, shapeCast_self, shapeCast_self]
  refine congrArg₂ (· + ·) ?_ ?_
  · simp only [matmul]
    rw [Ideal.matmul_constant_zero_apply, ← Equiv.sum_comp (contrEquiv1 dotD 4096 rfl rfl).symm]
    refine Finset.sum_congr rfl fun k _ => ?_
    have hk := contrEquiv1_symm_val dotD 4096 rfl rfl k
    have el : dotD.lhsIdx (ix2 r j) ((contrEquiv1 dotD 4096 rfl rfl).symm k) = ix2 r k := funext fun a => Fin.ext (by
      match a with
      | ⟨0, _⟩ => exact lhs0 _ _
      | ⟨1, _⟩ => exact (dotD.lhsIdx_val_of_single rfl _ _).trans hk)
    have er : dotD.rhsIdx (ix2 r j) ((contrEquiv1 dotD 4096 rfl rfl).symm k) = ix2 j k := funext fun a => Fin.ext (by
      match a with
      | ⟨0, _⟩ => exact rhs0 _ _
      | ⟨1, _⟩ => exact (dotD.rhsIdx_val_of_single rfl _ _).trans hk)
    rw [el, er]
  · rw [broadcastTo_1b_ab_apply, shapeCast_a_1a_apply]

/-- The spread row maximum at row r (any lane): the running maximum from −∞ over the row's 128 lanes. -/
theorem rowMaxV_apply (v8 : FVec Ideal S1024x128 .f32) (r : Fin 1024) (j : Fin 128) :
    rowMaxV v8 (ix2 r j) = (Finset.univ : Finset (Fin 128)).fold max negInf (fun l => v8 (ix2 r l)) := by
  unfold rowMaxV
  rw [broadcastTo_a1_ab_apply, shapeCast_a_a1_apply]
  refine (Ideal.multiReduction_maximumf_single v8 0xFF800000#32 reduces_S1024x128_S1024 (.inl rfl) rfl (ix1 r)).trans ?_
  refine congrArg (fun f => Finset.fold max negInf f (Finset.univ : Finset (Fin 128))) ?_
  funext l
  show v8 (reduces_S1024x128_S1024.lift (ix1 r) l) = v8 (ix2 r l)
  exact congrArg v8 (funext fun a => Fin.ext (by match a with | ⟨0, _⟩ => rfl | ⟨1, _⟩ => rfl))

/-- Half the row sum at row r (any lane). -/
theorem halfSumV_apply (v13 : FVec Ideal S1024x128 .f32) (r : Fin 1024) (j : Fin 128) :
    halfSumV v13 (ix2 r j) = half * ∑ l : Fin 128, v13 (ix2 r l) := by
  unfold halfSumV
  rw [broadcastTo_a1_ab_apply, mulf_apply, broadcast_apply, shapeCast_a_a1_apply]
  refine congrArg (half * ·) ?_
  refine (Ideal.multiReduction_add_single v13 0x00000000#32 reduces_S1024x128_S1024 (.inl rfl) rfl (ix1 r)).trans ?_
  refine Finset.sum_congr rfl fun l _ => ?_
  exact congrArg v13 (funext fun a => Fin.ext (by match a with | ⟨0, _⟩ => rfl | ⟨1, _⟩ => rfl))

/-- The quotient at row r, lane j, from the logits: the tile's quotient of the pure description. -/
theorem quotV_apply (v0 : FVec Ideal S1024x4096 .f32) (v1 : FVec Ideal S128x4096 .f32) (v4 : FVec Ideal S128 .f32)
    (r : Fin 1024) (j : Fin 128) : quotV (expV (logitsV v0 v1 v4)) (ix2 r j) = tquot v0 v1 v4 r j := by
  have hexp : ∀ l : Fin 128, expV (logitsV v0 v1 v4) (ix2 r l) = texp v0 v1 v4 r l := by
    intro l
    unfold expV texp tmax
    show Ideal.exp (logitsV v0 v1 v4 (ix2 r l) - rowMaxV (logitsV v0 v1 v4) (ix2 r l)) = _
    rw [rowMaxV_apply, logitsV_apply]
    refine congrArg (fun f => Ideal.exp (tlogit v0 v1 v4 r l - Finset.fold max negInf f (Finset.univ : Finset (Fin 128)))) ?_
    funext l'
    exact logitsV_apply v0 v1 v4 r l'
  unfold quotV tquot tden
  rw [divf_apply, halfSumV_apply, hexp j]
  refine congrArg (fun s => Ideal.div (texp v0 v1 v4 r j) (half * s)) (Finset.sum_congr rfl fun l _ => hexp l)

/-- The first row of pair r' is row 2 r'. -/
theorem evenRows_apply (v19 : FVec Ideal S1024x128 .f32) (r' : Fin 512) (l : Fin 128) :
    evenRows v19 (ix2 r' l) = v19 (ix2 (⟨2 * r'.val, by have := r'.isLt; omega⟩ : Fin 1024) l) := by
  unfold evenRows
  refine (shapeCast_apply _ shapeCasts_S512x1x128_S512x128 (ix2 r' l) (ix3 r' (0 : Fin 1) l) ?_).trans ?_
  · rw [Shape.rowMajor_val_three, Shape.rowMajor_val_two]
    show (r'.val * 1 + 0) * 128 + l.val = r'.val * 128 + l.val
    omega
  refine (extractStridedSlice_apply _ _ slices_S512x2x128_o0_0_0_S512x1x128 (ix3 r' (0 : Fin 1) l) (ix3 r' (0 : Fin 2) l) ?_).trans ?_
  · intro a
    match a with
    | ⟨0, _⟩ => show r'.val = 0 + r'.val; omega
    | ⟨1, _⟩ => rfl
    | ⟨2, _⟩ => show l.val = 0 + l.val; omega
  refine shapeCast_apply _ shapeCasts_S1024x128_S512x2x128 (ix3 r' (0 : Fin 2) l) _ ?_
  rw [Shape.rowMajor_val_three, Shape.rowMajor_val_two]
  show 2 * r'.val * 128 + l.val = (r'.val * 2 + 0) * 128 + l.val
  omega

/-- The second row of pair r' is row 2 r' + 1. -/
theorem oddRows_apply (v19 : FVec Ideal S1024x128 .f32) (r' : Fin 512) (l : Fin 128) :
    oddRows v19 (ix2 r' l) = v19 (ix2 (⟨2 * r'.val + 1, by have := r'.isLt; omega⟩ : Fin 1024) l) := by
  unfold oddRows
  refine (shapeCast_apply _ shapeCasts_S512x1x128_S512x128 (ix2 r' l) (ix3 r' (0 : Fin 1) l) ?_).trans ?_
  · rw [Shape.rowMajor_val_three, Shape.rowMajor_val_two]
    show (r'.val * 1 + 0) * 128 + l.val = r'.val * 128 + l.val
    omega
  refine (extractStridedSlice_apply _ _ slices_S512x2x128_o0_1_0_S512x1x128 (ix3 r' (0 : Fin 1) l) (ix3 r' (1 : Fin 2) l) ?_).trans ?_
  · intro a
    match a with
    | ⟨0, _⟩ => show r'.val = 0 + r'.val; omega
    | ⟨1, _⟩ => rfl
    | ⟨2, _⟩ => show l.val = 0 + l.val; omega
  refine shapeCast_apply _ shapeCasts_S1024x128_S512x2x128 (ix3 r' (1 : Fin 2) l) _ ?_
  rw [Shape.rowMajor_val_three, Shape.rowMajor_val_two]
  show (2 * r'.val + 1) * 128 + l.val = (r'.val * 2 + 1) * 128 + l.val
  omega

/-- The mask at lane l says whether l is below 64 (decided over the 128 lanes). -/
theorem lowLanes_word : ∀ l : Fin 128, IntOp.cmpi .slt (BitVec.ofNat 32 l.val) 64#32 = if l.val < 64 then 1#1 else 0#1 := by
  decide +kernel

theorem lowLanes_apply (r' : Fin 512) (l : Fin 128) : lowLanes (ix2 r' l) = if l.val < 64 then 1#1 else 0#1 := by
  unfold lowLanes
  show IntOp.cmpi .slt (iota .tc S512x128 32 [1] iota_S512x128_d1_w32 (ix2 r' l)) 64#32 = _
  rw [iota_single_apply]
  exact lowLanes_word l

/-! ## The stored value at an index -/

/-- Row r', lane l of the stored block: the tile's quotient at row 2 r' + l / 64, lane l. -/
theorem pay_at (v0 : Vec Ideal S1024x4096 .f32) (v1 : Vec Ideal S128x4096 .f32) (v4 : Vec Ideal S128 .f32)
    (r' : Fin 512) (l : Fin 128) :
    k0_pay1 (F := Ideal) v0 v1 v4 (ix2 r' l)
      = tquot v0 v1 v4 ⟨2 * r'.val + l.val / 64, by have := r'.isLt; have := l.isLt; omega⟩ l := by
  rw [pay_eq, select_apply, lowLanes_apply]
  by_cases hl : l.val < 64
  · rw [if_pos hl, select_one, evenRows_apply, quotV_apply]
    exact congrArg (fun r => tquot v0 v1 v4 r l) (Fin.ext (by show 2 * r'.val = 2 * r'.val + l.val / 64; omega))
  · rw [if_neg hl, select_zero, oddRows_apply, quotV_apply]
    exact congrArg (fun r => tquot v0 v1 v4 r l) (Fin.ext (by have := l.isLt; show 2 * r'.val + 1 = 2 * r'.val + l.val / 64; omega))

end Cert.RouterGate.Body

end
-- ==== Proof.Blocks.lean ====
/-
  From blocks to the array.  Grid point t stages rows 1024 t … 1024 t + 1023 of the activations, the whole doubled weight
  and the whole doubled bias, and writes rows 512 t … 512 t + 511 of the packed result.  The doubled weight and bias are
  the weight and bias laid twice along their first axis, so row j of either is row j mod 64 of the original.  With the
  stored value read at an index and the tile's quotient identified with the gate, what point t writes back is block t of
  the packed gate; the 32 blocks tile the array (row R lies in block R / 512), so the array ends holding the packed gate.
-/
import proofs.«144709_g60146722013333_cont_9to1_m_816_25_alg».proof.Proof.Gen.KernelIdeal.Frame
import proofs.«144709_g60146722013333_cont_9to1_m_816_25_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.RouterGate.Blocks

open Cert.KernelIdeal Cert.KernelIdeal.Gen Cert.RouterGate Cert.RouterGate.Body
open Idealize.ShloMosaic.ValueIdx

variable (m : (ℓ : Loc nD τ sig) → Buf (Elt Ideal) ℓ) (ρ : Dev nD → PrngReg)

/-- The activations, the weight and the bias as the program is launched with them. -/
abbrev Xa (c : Dev nD) : S32768x4096.Idx → EReal := m ((c : Thread nD τ).loc main_arg0)
abbrev Wa (c : Dev nD) : S64x4096.Idx → EReal := m ((c : Thread nD τ).loc main_arg1)
abbrev ba (c : Dev nD) : S64.Idx → EReal := m ((c : Thread nD τ).loc main_arg2)

theorem hz2 : (![0, 0] : Fin 2 → Nat) = fun _ => 0 := funext fun a => by fin_cases a <;> rfl
theorem hz1 : (![0] : Fin 1 → Nat) = fun _ => 0 := funext fun a => by fin_cases a <;> rfl

theorem lt32 (t : Fin cfg0.N) : t.val < 32 := lt_of_lt_of_eq t.isLt (show cfg0.N = 32 from N_0)

/-! ## The doubled weight and bias -/

/-- The doubled weight as the region finds it: the weight laid twice along the expert axis. -/
theorem V_weight2 (c : Dev nD) : (V m c main_v0 : S128x4096.Idx → Elt Ideal .f32)
    = concatenate S128x4096 0 [⟨S64x4096, Wa m c⟩, ⟨S64x4096, Wa m c⟩] concatenates_S64x4096_S64x4096_S128x4096_d0 := by
  show StableHlo.after hostOps0 (fun b => m (c, b)) (Proc.devRef .tc main_v0) = _
  after_results

/-- The doubled bias as the region finds it. -/
theorem V_bias2 (c : Dev nD) : (V m c main_v1 : S128.Idx → Elt Ideal .f32)
    = concatenate S128 0 [⟨S64, ba m c⟩, ⟨S64, ba m c⟩] concatenates_S64_S64_S128_d0 := by
  show StableHlo.after hostOps0 (fun b => m (c, b)) (Proc.devRef .tc main_v1) = _
  after_results

/-- Row j of the doubled weight is row j mod 64 of the weight. -/
theorem weight2_at (c : Dev nD) (j : Fin 128) (k : Fin 4096) :
    (V m c main_v0 : S128x4096.Idx → Elt Ideal .f32) (ix2 j k) = Wa m c (ix2 ⟨j.val % 64, Nat.mod_lt _ (by norm_num)⟩ k) := by
  refine (congrFun (V_weight2 m c) (ix2 j k)).trans ?_
  by_cases hj : j.val < 64
  · refine (concatenate_pair_apply_left (0 : Fin S128x4096.rank) (Wa m c) (Wa m c) concatenates_S64x4096_S64x4096_S128x4096_d0 (ix2 j k) rfl
      (ix2 (⟨j.val, hj⟩ : Fin 64) k) (fun b => by match b with | ⟨0, _⟩ => rfl | ⟨1, _⟩ => rfl)).trans ?_
    exact congrArg (Wa m c) (congrArg₂ ix2 (Fin.ext (by show j.val = j.val % 64; omega)) rfl)
  · refine (concatenate_pair_apply_right (0 : Fin S128x4096.rank) (Wa m c) (Wa m c) concatenates_S64x4096_S64x4096_S128x4096_d0 (ix2 j k) rfl rfl
      (ix2 (⟨j.val - 64, by have := j.isLt; omega⟩ : Fin 64) k)
      (fun b hb => by match b with | ⟨0, _⟩ => exact absurd rfl hb | ⟨1, _⟩ => rfl)
      (by show j.val - 64 + 64 = j.val; omega)).trans ?_
    exact congrArg (Wa m c) (congrArg₂ ix2 (Fin.ext (by have := j.isLt; show j.val - 64 = j.val % 64; omega)) rfl)

/-- Entry j of the doubled bias is entry j mod 64 of the bias. -/
theorem bias2_at (c : Dev nD) (j : Fin 128) :
    (V m c main_v1 : S128.Idx → Elt Ideal .f32) (ix1 j) = ba m c (ix1 ⟨j.val % 64, Nat.mod_lt _ (by norm_num)⟩) := by
  refine (congrFun (V_bias2 m c) (ix1 j)).trans ?_
  by_cases hj : j.val < 64
  · refine (concatenate_pair_apply_left (0 : Fin S128.rank) (ba m c) (ba m c) concatenates_S64_S64_S128_d0 (ix1 j) rfl
      (ix1 (⟨j.val, hj⟩ : Fin 64)) (fun b => by match b with | ⟨0, _⟩ => rfl)).trans ?_
    exact congrArg (ba m c) (congrArg ix1 (Fin.ext (by show j.val = j.val % 64; omega)))
  · refine (concatenate_pair_apply_right (0 : Fin S128.rank) (ba m c) (ba m c) concatenates_S64_S64_S128_d0 (ix1 j) rfl rfl
      (ix1 (⟨j.val - 64, by have := j.isLt; omega⟩ : Fin 64))
      (fun b hb => by match b with | ⟨0, _⟩ => exact absurd rfl hb)
      (by show j.val - 64 + 64 = j.val; omega)).trans ?_
    exact congrArg (ba m c) (congrArg ix1 (Fin.ext (by have := j.isLt; show j.val - 64 = j.val % 64; omega)))

/-! ## The blocks a point stages -/

/-- The printed index maps over the grid: the activations' and the result's block index is the point, the doubled weight
    and bias are staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The activations' block at point t is rows 1024 t … of the activations. -/
theorem blockX_at (c : Dev nD) (t : Fin cfg0.N) (r : Fin 1024) (k : Fin 4096) :
    (iblk m c 0 t : S1024x4096.Idx → Elt Ideal .f32) (ix2 r k)
      = Xa m c (ix2 ⟨1024 * t.val + r.val, by have := lt32 t; have := r.isLt; omega⟩ k) := by
  obtain ⟨e0, e1, -⟩ := idx_facts t
  unfold iblk
  rw [View.read_apply]
  show V m c main_arg0 _ = _
  rw [V_main_arg0]
  refine congrArg (Xa m c) (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 4096 + 1 * k.val = k.val; rw [e1]; omega

/-- The doubled weight's block at any point is the doubled weight. -/
theorem blockW_at (c : Dev nD) (t : Fin cfg0.N) (j : Fin 128) (k : Fin 4096) :
    (iblk m c 1 t : S128x4096.Idx → Elt Ideal .f32) (ix2 j k) = Wa m c (ix2 ⟨j.val % 64, Nat.mod_lt _ (by norm_num)⟩ k) := by
  obtain ⟨-, -, e0, e1, -⟩ := idx_facts t
  refine Eq.trans ?_ (weight2_at m c j k)
  unfold iblk
  rw [View.read_apply]
  show V m c main_v0 _ = V m c main_v0 _
  refine congrArg (V m c main_v0 : S128x4096.Idx → Elt Ideal .f32) (funext fun a => Fin.ext ?_)
  match a with
  | ⟨0, _⟩ => show win0_1.index t (0 : Fin 2) * 128 + 1 * j.val = j.val; rw [e0]; omega
  | ⟨1, _⟩ => show win0_1.index t (1 : Fin 2) * 4096 + 1 * k.val = k.val; rw [e1]; omega

/-- The doubled bias's block at any point is the doubled bias. -/
theorem blockB_at (c : Dev nD) (t : Fin cfg0.N) (j : Fin 128) :
    (iblk m c 2 t : S128.Idx → Elt Ideal .f32) (ix1 j) = ba m c (ix1 ⟨j.val % 64, Nat.mod_lt _ (by norm_num)⟩) := by
  obtain ⟨-, -, -, -, e0, -⟩ := idx_facts t
  refine Eq.trans ?_ (bias2_at m c j)
  unfold iblk
  rw [View.read_apply]
  show V m c main_v1 _ = V m c main_v1 _
  refine congrArg (V m c main_v1 : S128.Idx → Elt Ideal .f32) (funext fun a => Fin.ext ?_)
  match a with
  | ⟨0, _⟩ => show win0_2.index t (0 : Fin 1) * 128 + 1 * j.val = j.val; rw [e0]; omega

/-! ## What a point writes back, and the array after the run -/

/-- The packed gate at an index whose token and expert are named. -/
theorem packed_at (X : S32768x4096.Idx → EReal) (W : S64x4096.Idx → EReal) (b : S64.Idx → EReal) (i : S16384x128.Idx)
    (n : Fin 32768) (e : Fin 64) (hn : n.val = 2 * (i 0).val + (i 1).val / 64) (he : e.val = (i 1).val % 64) :
    packed X W b i = gate X W b (ix2 n e) := by
  unfold packed
  exact congrArg (gate X W b) (congrArg₂ ix2 (Fin.ext hn.symm) (Fin.ext he.symm))

/-- What point t writes back is block t of the packed gate of the launch arrays. -/
theorem flushed_eq (c : Dev nD) (t : Fin cfg0.N) :
    (dats m 0 c).flushed 3 t = ((cfg0.win 3).blk t).view.read (Elt Ideal) (packed (Xa m c) (Wa m c) (ba m c)) := by
  show (cfg0.win 3).cut (grid0.coords t) ((dats m 0 c).after 3 t) = _
  rw [after0_3]
  unfold out0_3
  rw [View.canon_unit_zero hz2]
  simp only [View.ld_unit_zero (S := S1024x4096) hz2, View.ld_unit_zero (S := S128x4096) hz2, View.ld_unit_zero (S := S128) hz1]
  obtain ⟨-, -, -, -, -, e0, e1⟩ := idx_facts t
  funext j
  obtain ⟨r', l, rfl⟩ : ∃ (r' : Fin 512) (l : Fin 128), (j : S512x128.Idx) = ix2 r' l := ⟨j 0, j 1, eq_ix2 j⟩
  show k0_pay1 (F := Ideal) (iblk m c 0 t) (iblk m c 1 t) (iblk m c 2 t) (ix2 r' l)
    = packed (Xa m c) (Wa m c) (ba m c) (((cfg0.win 3).blk t).view.emb (ix2 r' l))
  refine (pay_at (iblk m c 0 t) (iblk m c 1 t) (iblk m c 2 t) r' l).trans ?_
  refine (tquot_eq_gate (Xa m c) (Wa m c) (ba m c) (iblk m c 0 t) (iblk m c 1 t) (iblk m c 2 t) ⟨t.val, lt32 t⟩
    (fun r k => blockX_at m c t r k) (fun j k => blockW_at m c t j k) (fun j => blockB_at m c t j) _ l).trans ?_
  refine (packed_at (Xa m c) (Wa m c) (ba m c) _ _ _ ?_ ?_).symm
  · show 1024 * t.val + (2 * r'.val + l.val / 64)
      = 2 * (win0_3.index t (0 : Fin 2) * 512 + 1 * r'.val) + (win0_3.index t (1 : Fin 2) * 128 + 1 * l.val) / 64
    rw [e0, e1]; omega
  · show l.val % 64 = (win0_3.index t (1 : Fin 2) * 128 + 1 * l.val) % 64
    rw [e1]; omega

/-- An index of the packed array is in point t's block iff each coordinate is in the block's range on its axis. -/
theorem mem_blk (t : Fin cfg0.N) (i : S16384x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v2).slice (win0_3.rect t)).set ↔ _
  rw [View.set_slice_whole, Rect.mem_set_unit]
  exact Iff.rfl

/-- Row R of the packed array lies in block R / 512: the 32 blocks tile it. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have ht : (i 0).val / 512 < cfg0.N := by rw [show cfg0.N = 32 from N_0]; omega
  obtain ⟨-, -, -, -, -, e0, e1⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 128 ≤ (i 1).val
      ∧ (i 1).val < win0_3.index ⟨(i 0).val / 512, ht⟩ (1 : Fin 2) * 128 + 128
    rw [e1]; omega

/-- The packed array after the run is the packed gate of the launch arrays. -/
theorem final (c : Dev nD) : (dats m 0 c).arrAt 3 cfg0.N = packed (Xa m c) (Wa m c) (ba m c) :=
  (dats m 0 c).arrAt_eq_of_cover 3 (packed (Xa m c) (Wa m c) (ba m c)) (fun t _ => flushed_eq m c t) cover

end Cert.RouterGate.Blocks

end
-- ==== Proof.KernelRun.lean ====
/-
  The whole program's run.  After the region the host views the packed 16384 × 128 array as 32768 × 64, keeping the row-major
  order: token n, expert e sits at position 64 n + e, which is row n / 2, lane 64 (n mod 2) + e of the packed array, where the
  packed gate holds the gate of token 2 (n / 2) + (n mod 2) = n for expert e.  So the result buffer ends holding the gate of
  the launch arrays, and the arguments are as launched.
-/
import proofs.«144709_g60146722013333_cont_9to1_m_816_25_alg».proof.Proof.Blocks
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.RouterGate.Run

open Cert.KernelIdeal Cert.KernelIdeal.Gen Cert.RouterGate Cert.RouterGate.Blocks
open Idealize.ShloMosaic.ValueIdx

variable (m : (ℓ : Loc nD τ sig) → Buf (Elt Ideal) ℓ) (ρ : Dev nD → PrngReg)

/-- The packed gate viewed as 32768 × 64 in row-major order is the gate. -/
theorem reshape_packed (X : S32768x4096.Idx → EReal) (W : S64x4096.Idx → EReal) (b : S64.Idx → EReal)
    (h : S16384x128.ShapeCasts S32768x64) : shapeCast S32768x64 (packed X W b) h = gate X W b := by
  funext i
  obtain ⟨n, e, rfl⟩ : ∃ (n : Fin 32768) (e : Fin 64), i = ix2 n e := ⟨i 0, i 1, eq_ix2 i⟩
  refine (shapeCast_apply (packed X W b) h (ix2 n e)
    (ix2 (⟨n.val / 2, by have := n.isLt; omega⟩ : Fin 16384) (⟨n.val % 2 * 64 + e.val, by have := e.isLt; omega⟩ : Fin 128)) ?_).trans ?_
  · rw [Shape.rowMajor_val_two, Shape.rowMajor_val_two]
    show n.val / 2 * 128 + (n.val % 2 * 64 + e.val) = n.val * 64 + e.val
    omega
  · exact packed_at X W b _ n e
      (by have := e.isLt; show n.val = 2 * (n.val / 2) + (n.val % 2 * 64 + e.val) / 64; omega)
      (by have := e.isLt; show e.val = (n.val % 2 * 64 + e.val) % 64; omega)

/-- What the host's reshape after the region leaves in the result buffer: the gate of the launch arrays. -/
theorem tail_eq (c : Dev nD) :
    Pipeline.afterTail₀ cfgs (dats m) 0 (V0 m) [hostOps1] c main_v3 = gate (Xa m c) (Wa m c) (ba m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = packed (Xa m c) (Wa m c) (ba m c) :=
    (Pipeline.withArrays_arr spec0 launch0.win.arr_inj c _ _ 3).trans (final m c)
  show shapeCast S32768x64 (Pipeline.withArrays (cfgs 0).spec c (V0 m c) (fun w => (dats m 0 c).arrAt w (cfgs 0).N)
    (Proc.devRef .tc main_v2)) shapeCasts_S16384x128_S32768x64 = _
  exact (congrArg (fun A : S16384x128.Idx → EReal => shapeCast S32768x64 A shapeCasts_S16384x128_S32768x64) e).trans
    (reshape_packed _ _ _ _)

/-- Every weakly fair execution of the idealized kernel program terminates with the result buffer at the gate of the launch
    arrays and the three arguments as launched. -/
theorem run : θ_run defs (onTc (τ := τ) (main (F := Ideal))) ⟨m, fun _ => 0, ρ⟩ fun r => ∀ c : Dev nD,
      r.2.mem ((c.tc : Thread nD τ).loc main_v3) = gate (Xa m c) (Wa m c) (ba m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.RouterGate.Run

end
-- ==== Proof.lean ====
/-
  A mixture-of-experts router's gate, probs = softmax(x · Wᵀ + b) over 64 experts for 32768 tokens, computed by a kernel that
  keeps every vector 128 lanes wide against the plain formula.

  The kernel lays the weight and the bias twice side by side, so a token's 128 logits are its 64 logits repeated; it takes the
  softmax over the 128 lanes with HALF the 128-lane sum as the normalizer, writes two tokens' 64 gates into one row of 128
  (lanes below 64 from the even token, the others from the odd one), and the host views the 16384 × 128 result as 32768 × 64.
  On the extended reals the two programs are one function: a maximum over repeated values is the maximum over the values; the
  sum of the repeated exponentials is the 64-expert sum S taken twice, and half of S + S is S because S, a sum of exponentials,
  is never negative (so its only infinite value, +∞, is kept by halving); the packing followed by the row-major view is the
  identity on (token, expert).  No law used needs the inputs finite, so the precondition is never opened.

  The frames of the two kernel programs are their generated frame certificates and the reference's is its generated run with the
  result dropped; the kernel's idealization rewrote nothing, so there is nothing to preserve; the value of the idealized kernel
  is read off its frame run (what each grid point stores, the blocks tiling the array, the host's reshape) and the reference's
  off its run, both as the gate of the launch arrays.
-/
import proofs.«144709_g60146722013333_cont_9to1_m_816_25_alg».proof.Defs
import proofs.«144709_g60146722013333_cont_9to1_m_816_25_alg».proof.Proof.Gen.Kernel
import proofs.«144709_g60146722013333_cont_9to1_m_816_25_alg».proof.Proof.Gen.Kernel.Skeleton
import proofs.«144709_g60146722013333_cont_9to1_m_816_25_alg».proof.Proof.Gen.Kernel.Launch
import proofs.«144709_g60146722013333_cont_9to1_m_816_25_alg».proof.Proof.Gen.Kernel.Points
import proofs.«144709_g60146722013333_cont_9to1_m_816_25_alg».proof.Proof.Gen.Kernel.Frame
import proofs.«144709_g60146722013333_cont_9to1_m_816_25_alg».proof.Proof.Gen.KernelIdeal
import proofs.«144709_g60146722013333_cont_9to1_m_816_25_alg».proof.Proof.Gen.KernelIdeal.Skeleton
import proofs.«144709_g60146722013333_cont_9to1_m_816_25_alg».proof.Proof.Gen.KernelIdeal.Launch
import proofs.«144709_g60146722013333_cont_9to1_m_816_25_alg».proof.Proof.Gen.KernelIdeal.Points
import proofs.«144709_g60146722013333_cont_9to1_m_816_25_alg».proof.Proof.Gen.KernelIdeal.Frame
import proofs.«144709_g60146722013333_cont_9to1_m_816_25_alg».proof.Proof.Gen.ReferenceIdeal
import proofs.«144709_g60146722013333_cont_9to1_m_816_25_alg».proof.Proof.Gen.Pre_finite_inputs
import proofs.«144709_g60146722013333_cont_9to1_m_816_25_alg».proof.Proof.Gen.ReferenceIdeal.Run
import proofs.«144709_g60146722013333_cont_9to1_m_816_25_alg».proof.Proof.Gen.ReferenceIdeal.Read
import proofs.«144709_g60146722013333_cont_9to1_m_816_25_alg».proof.Proof.RefIsSpec
import proofs.«144709_g60146722013333_cont_9to1_m_816_25_alg».proof.Proof.KernelRun
import Idealize.ShloMosaic.Adequacy
import Idealize.ShloMosaic.Init

noncomputable section

namespace Cert.Proof

open Idealize.ShloMosaic Idealize.SL.Sem

/-- The word-level kernel runs and leaves its arguments alone: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the activations, the weight and the bias, both idealized programs end with the result buffer
    at the gate of those arrays. -/
theorem algebraic : Cert.algebraic_KernelIdeal_ReferenceIdeal := by
  intro m ρ m' ρ' _ hagree
  refine ⟨fun c => Cert.RouterGate.gate (Cert.RouterGate.Blocks.Xa m c) (Cert.RouterGate.Blocks.Wa m c) (Cert.RouterGate.Blocks.ba m c),
    Cert.RouterGate.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RouterGate.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
